-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x2048 .f32
  ∧ IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S512x2048 : Shape := ⟨2, ![512, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S1x2048, .f32⟩
  | .hbm, ⟨11, _⟩ => ⟨S8192x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  The function both programs compute, stated once over the three argument arrays.

  A binarized linear layer: every entry of the activations x (8192 rows of 2048) and of the weights w (2048 rows
  of 2048) is replaced by its sign, -1, 0 or 1, the row t of the binarized activations is paired with the row o of the
  binarized weights and the products are summed over the 2048 shared columns, and the bias entry b o is added:

      out (t, o) = (sum over k of sign (x (t, k)) * sign (w (o, k))) + b o.

  The sign is taken on the extended reals (-1 at the lower infinity, 1 at the upper one), so the formula has a value
  at every input; the sum is a finite sum in a commutative monoid, so neither the order of its terms nor any grouping
  of them into blocks matters.

  One law is proved here, the one the straight-through form of the sign needs: for a REAL a, a + (sign a - a) is
  sign a. At an infinity it fails (the upper infinity plus (1 minus the upper infinity) is the lower infinity), which is
  why the equivalence is claimed for finite inputs only.
-/
import Idealize.ShloMosaic.PureOps.Ideal
import Idealize.ShloMosaic.PureOps.Ideal.Laws
import Idealize.ShloMosaic.Lib.ValueIdx

noncomputable section

namespace Cert.SignLinear

open Idealize.ShloMosaic Idealize.ShloMosaic.ValueIdx

/-- The sum over the shared column index of the products of the signs: row `p` of the activations against row `q` of
    the weights. -/
def signDot (x : (⟨2, ![8192, 2048]⟩ : Shape).Idx → EReal) (w : (⟨2, ![2048, 2048]⟩ : Shape).Idx → EReal)
    (p : Fin 8192) (q : Fin 2048) : EReal :=
  ∑ k : Fin 2048, Ideal.sign (x (ix2 p k)) * Ideal.sign (w (ix2 q k))

/-- The layer's result at every index: the sign dot product of the index's row and column, plus the column's bias. -/
def out (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  fun i => signDot x w (i 0) (i 1) + b (ix1 (i 1))

theorem out_ix2 (x : (⟨2, ![8192, 2048]⟩ : Shape).Idx → EReal) (w : (⟨2, ![2048, 2048]⟩ : Shape).Idx → EReal)
    (b : (⟨1, ![2048]⟩ : Shape).Idx → EReal) (p : Fin 8192) (q : Fin 2048) :
    out x w b (ix2 p q) = signDot x w p q + b (ix1 q) := rfl

/-- The straight-through form of the sign, on a real number: adding to `a` the difference between its sign and itself
    gives the sign. Both infinities are excluded: there the difference is infinite and the sum is not the sign. -/
theorem add_sign_sub_self {a : EReal} (htop : a ≠ ⊤) (hbot : a ≠ ⊥) : a + (Ideal.sign a - a) = Ideal.sign a := by
  lift a to ℝ using ⟨htop, hbot⟩
  rw [Ideal.sign_coe, ← EReal.coe_sub, ← EReal.coe_add]
  exact congrArg _ (add_sub_cancel _ _)

end Cert.SignLinear

end
-- ==== Proof.RefValue.lean ====
/-
  The reference program's result is the layer's function of its three arguments, when the activations and the
  weights are arrays of reals.

  The reference binarizes in the straight-through form: it adds to each entry the difference between the entry's sign
  and the entry. On a real entry that sum is the sign (the law of the specification module); this is the one place
  where the finiteness of the inputs is used. Its product is one contraction of the column index of both binarized
  arrays, read at an index as the sum over that column index; its bias is the vector placed along the columns and
  repeated down the rows, read at (t, o) as the vector's entry o. The bias itself may be any extended real: it is only
  added.
-/
import proofs.«181405_j33423435498260_2_alg».proof.Proof.Gen.ReferenceIdeal.Read
import proofs.«181405_j33423435498260_2_alg».proof.Proof.Spec

noncomputable section

namespace Cert.ReferenceIdeal.RefValue

open Cert.ReferenceIdeal Cert.ReferenceIdeal.Read Idealize.ShloMosaic Idealize.ShloMosaic.ValueIdx Cert.SignLinear

/-- The straight-through binarization of the activations, at an entry that is a real: the entry's sign. -/
theorem binarized_x (x : (⟨S8192x2048, .f32⟩ : BufTy).Contents (Elt Ideal)) (hx : ∀ i, x i ≠ ⊤ ∧ x i ≠ ⊥) (j : S8192x2048.Idx) :
    val_main_v2 (F := Ideal) x j = Ideal.sign (x j) := by
  rw [val_main_v2_apply, val_main_v1_apply, val_main_v0_apply]
  exact add_sign_sub_self (hx j).1 (hx j).2

/-- The same for the weights. -/
theorem binarized_w (w : (⟨S2048x2048, .f32⟩ : BufTy).Contents (Elt Ideal)) (hw : ∀ i, w i ≠ ⊤ ∧ w i ≠ ⊥) (j : S2048x2048.Idx) :
    val_main_v5 (F := Ideal) w j = Ideal.sign (w j) := by
  rw [val_main_v5_apply, val_main_v4_apply, val_main_v3_apply]
  exact add_sign_sub_self (hw j).1 (hw j).2

/-- The reference's result, index by index: the sign dot product of row `t` of the activations with row `o` of the
    weights, plus the bias entry `o`. -/
theorem result_eq (x : (⟨S8192x2048, .f32⟩ : BufTy).Contents (Elt Ideal)) (w : (⟨S2048x2048, .f32⟩ : BufTy).Contents (Elt Ideal))
    (b : (⟨S2048, .f32⟩ : BufTy).Contents (Elt Ideal)) (hx : ∀ i, x i ≠ ⊤ ∧ x i ≠ ⊥) (hw : ∀ i, w i ≠ ⊤ ∧ w i ≠ ⊥) :
    val_main_v9 (F := Ideal) x w b = out x w b := by
  funext i
  obtain ⟨p, q, rfl⟩ : ∃ (p : Fin 8192) (q : Fin 2048), i = ix2 p q := ⟨i 0, i 1, eq_ix2 i⟩
  have hl : ∀ k : Fin 2048, lidx_main_v6 (ix2 p q) k = ix2 p k := fun k => funext fun a => Fin.ext (by
    match a with
    | ⟨0, _⟩ => rfl
    | ⟨1, _⟩ => rfl)
  have hr : ∀ k : Fin 2048, ridx_main_v6 (ix2 p q) k = ix2 q k := fun k => funext fun a => Fin.ext (by
    match a with
    | ⟨0, _⟩ => rfl
    | ⟨1, _⟩ => rfl)
  have hb : idx_main_v7 (idx_main_v8 (ix2 p q)) = ix1 q := funext fun a => Fin.ext (by
    match a with
    | ⟨0, _⟩ => rfl)
  rw [val_main_v9_apply, val_main_v6_apply, val_main_v8_apply, val_main_v7_apply, hb, out_ix2]
  show (∑ k : Fin 2048, val_main_v2 (F := Ideal) x (lidx_main_v6 (ix2 p q) k) * val_main_v5 (F := Ideal) w (ridx_main_v6 (ix2 p q) k)) + b (ix1 q) = _
  unfold signDot
  refine congrArg (· + b (ix1 q)) (Finset.sum_congr rfl fun k _ => ?_)
  rw [hl, hr, binarized_x x hx, binarized_w w hw]

end Cert.ReferenceIdeal.RefValue

end
-- ==== Proof.ResultRun.lean ====
/-
  The kernel program's run, with its result array named.

  The program is two launches with one host operation between them. Its contents at each boundary are a fold from the
  launch memory: after the first launch (`W1`) the first launch's output array holds what its write-backs leave and
  every other buffer is as launched; after the host operation (`W2`) the bias has been laid out as a row; after the
  second launch (`W3`) its output array holds what ITS write-backs leave. Every weakly fair execution terminates,
  without a fault, in a state whose unscoped buffers are `W3`: in particular the result buffer is `W3` at the result
  and the three arguments are as launched. This is the frame statement with one more conjunct, the result read off
  the same last state the arguments are read off; it holds at every instance of the float operations.
-/
import proofs.«181405_j33423435498260_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents of it and the argument arrays as launched. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.ResultRun

end
-- ==== Proof.Payload.lean ====
/-
  The two kernel bodies' arithmetic, read at an index, at the exact instance.

  The first body stores, for a block of 512 rows of the weights, the sign of every entry: the body's value is
  `1.0 carrying the entry's sign` where the entry's magnitude is above zero and the entry itself (zero) elsewhere,
  which on the extended reals is the three-valued sign at every entry; the change of float format that follows is the
  identity there.

  The second body takes a block of 512 rows of the activations, binarizes it by the very same expression, multiplies
  it against the whole 2048 x 2048 array of binarized weights, contracting the column index of both (row p of the block
  against row q of the weights), into a zero accumulator, and adds the 1 x 2048 bias row broadcast down the 512 rows.
  At an index (p, q) of the block this is the sum over k of sign (x (p, k)) * wb (q, k), plus the bias at (0, q).
-/
import proofs.«181405_j33423435498260_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The sign of a block -/

/-- The first body's stored value is the sign of the loaded block, entry by entry. -/
theorem sign_block (v0 : Vec Ideal S512x2048 .f32) : k0_pay1 (F := Ideal) v0 = fun i => Ideal.sign (v0 i) :=
  funext fun i => Ideal.jnp_sign_eq_sign_f32 (v0 i)

/-! ## The product of a block of rows with the whole array of weights, contracting the columns of both -/

/-- The row of the left operand that enters the output entry `i`: the entry's own row. -/
theorem dot_lhs_row (i : S512x2048.Idx) (c : dot_S512x2048_S2048x2048_S512x2048_1_1_0_0_n_n.contr.Idx) :
    (dot_S512x2048_S2048x2048_S512x2048_1_1_0_0_n_n.lhsIdx i c 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- Its column: the contraction index. -/
theorem dot_lhs_col (i : S512x2048.Idx) (c : dot_S512x2048_S2048x2048_S512x2048_1_1_0_0_n_n.contr.Idx) :
    (dot_S512x2048_S2048x2048_S512x2048_1_1_0_0_n_n.lhsIdx i c 1).val = (c ⟨0, by decide⟩).val :=
  dot_S512x2048_S2048x2048_S512x2048_1_1_0_0_n_n.lhsIdx_val_of_single rfl i c
/-- The row of the right operand that enters the output entry `i`: the entry's COLUMN (the weights are stored one
    output feature per row). -/
theorem dot_rhs_row (i : S512x2048.Idx) (c : dot_S512x2048_S2048x2048_S512x2048_1_1_0_0_n_n.contr.Idx) :
    (dot_S512x2048_S2048x2048_S512x2048_1_1_0_0_n_n.rhsIdx i c 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- Its column: the contraction index again. -/
theorem dot_rhs_col (i : S512x2048.Idx) (c : dot_S512x2048_S2048x2048_S512x2048_1_1_0_0_n_n.contr.Idx) :
    (dot_S512x2048_S2048x2048_S512x2048_1_1_0_0_n_n.rhsIdx i c 1).val = (c ⟨0, by decide⟩).val :=
  dot_S512x2048_S2048x2048_S512x2048_1_1_0_0_n_n.rhsIdx_val_of_single rfl i c

/-- The matrix product into a zero accumulator, at the entry (p, q): row `p` of the left operand against row `q` of the
    right one, summed over the 2048 columns. -/
theorem matmul_at (a : FVec Ideal S512x2048 .bf16) (w : FVec Ideal S2048x2048 .bf16) (p : Fin 512) (q : Fin 2048) :
    matmul dot_S512x2048_S2048x2048_S512x2048_1_1_0_0_n_n none a w (constant (F := Ideal) S512x2048 .f32 0x00000000#32) (ix2 p q)
      = ∑ k : Fin 2048, a (ix2 p k) * w (ix2 q k) := by
  refine (Ideal.matmul_constant_zero_apply dot_S512x2048_S2048x2048_S512x2048_1_1_0_0_n_n none a w (ix2 p q)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun d => Fin.ext (by
    match d with
    | ⟨0, _⟩ => exact dot_lhs_row _ _
    | ⟨1, _⟩ => exact (dot_lhs_col _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun d => Fin.ext (by
    match d with
    | ⟨0, _⟩ => exact dot_rhs_row _ _
    | ⟨1, _⟩ => exact (dot_rhs_col _ _).trans hk)
  rw [el, er]

/-! ## The bias row, broadcast down the rows of the block -/

/-- The 1 x 2048 row broadcast to 512 x 2048, at the entry (p, q): the row's entry in column `q`. -/
theorem bias_at (r : FVec Ideal S1x2048 .f32) (p : Fin 512) (q : Fin 2048) :
    broadcastTo S512x2048 r broadcasts_S1x2048_S512x2048 (ix2 p q) = r (ix2 (0 : Fin 1) q) :=
  broadcastTo_apply r broadcasts_S1x2048_S512x2048 (ix2 p q) (ix2 (0 : Fin 1) q) (fun d => match d with
    | ⟨0, _⟩ => by show 0 = if (1 : Nat) = 1 then 0 else _; rw [if_pos rfl]
    | ⟨1, _⟩ => by show q.val = if (2048 : Nat) = 1 then 0 else q.val; rw [if_neg (by decide)])

/-! ## The second body at an entry -/

/-- The second body's stored value at the entry (p, q) of its block: the signs of row `p` of the activations' block
    against row `q` of the resident array, summed over the columns, plus the bias row's entry in column `q`. -/
theorem rows_block (v0 : Vec Ideal S512x2048 .f32) (v12 : Vec Ideal S2048x2048 .bf16) (v15 : Vec Ideal S1x2048 .f32)
    (p : Fin 512) (q : Fin 2048) :
    k1_pay1 (F := Ideal) v0 v12 v15 (ix2 p q)
      = (∑ k : Fin 2048, Ideal.sign (v0 (ix2 p k)) * v12 (ix2 q k)) + v15 (ix2 (0 : Fin 1) q) := by
  have e : k1_pay1 (F := Ideal) v0 v12 v15 (ix2 p q)
      = matmul dot_S512x2048_S2048x2048_S512x2048_1_1_0_0_n_n none (k0_pay1 (F := Ideal) v0)
            (shapeCast S2048x2048 v12 shapeCasts_S2048x2048_S2048x2048) (constant (F := Ideal) S512x2048 .f32 0x00000000#32) (ix2 p q)
          + broadcastTo S512x2048 (shapeCast S1x2048 v15 shapeCasts_S1x2048_S1x2048) broadcasts_S1x2048_S512x2048 (ix2 p q) := rfl
  rw [e, shapeCast_self, shapeCast_self, matmul_at, bias_at, sign_block]

end Cert.KernelIdeal.Payload

end
-- ==== Proof.WeightSigns.lean ====
/-
  What the first launch leaves in its output array: the sign of the weights, entry by entry.

  The launch runs over 4 points. Point t reads the block of rows 512 t … 512 t + 511 (all 2048 columns) of the
  weights and writes the block of the same rows of the output: input and output windows move together, and the
  column block index of both is 0. What a point writes back is the sign of what it read, so it is the same block of
  the ONE array "sign of the weights"; the 4 blocks tile the 2048 rows (row r lies in the block of point r / 512), so
  after the launch the whole output array is that array.

  Stated at any contents `V` the launch may be entered from.
-/
import proofs.«181405_j33423435498260_2_alg».proof.Proof.Gen.KernelIdeal.Frame
import proofs.«181405_j33423435498260_2_alg».proof.Proof.Payload
import Idealize.ShloMosaic.Lib.Pipeline.Value

set_option maxRecDepth 16384

noncomputable section

namespace Cert.KernelIdeal.WeightSigns

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The array of signs of an array of weights. -/
def signs (a : S2048x2048.Idx → Elt Ideal .f32) : S2048x2048.Idx → Elt Ideal .bf16 := fun i => Ideal.sign (a i)

theorem origin : (![0, 0] : Fin 2 → Nat) = fun _ => 0 := funext fun a => by fin_cases a <;> rfl

/-- The two windows' block indices at every point, decided over the 4 points: the row block index of both is the
    point's number, the column block index of both is 0. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the array of signs of the weights as the launch finds them. -/
theorem flushed_eq (c : Dev nD) (t : Fin cfg0.N) :
    (dat0 V c).flushed 1 t = ((cfg0.win 1).blk t).view.read (Elt Ideal) (signs (V c main_arg1)) := by
  show (cfg0.win 1).cut (grid0.coords t) ((dat0 V c).after 1 t) = _
  rw [after0_1]
  unfold out0_1
  rw [View.canon_unit_zero origin]
  simp only [View.ld_unit_zero (S := S512x2048) origin]
  rw [Payload.sign_block]
  obtain ⟨e0, e1, e2, e3⟩ := block_indices t
  funext j
  show Ideal.sign (V c main_arg1 (((cfg0.win 0).blk t).view.emb j)) = Ideal.sign (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * (j 1).val = win0_1.index t (1 : Fin 2) * 2048 + 1 * (j 1).val; omega
  rw [h0]

/-- An index of the output array is in point `t`'s block iff each coordinate is in the block's range on its axis. -/
theorem mem_blk (t : Fin cfg0.N) (i : S2048x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0).slice (win0_1.rect t)).set ↔ _
  rw [View.set_slice_whole, Rect.mem_set_unit]
  exact Iff.rfl

/-- Every index of the output array is in the block of the point numbered by its row divided by 512. -/
theorem cover (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  have hN : grid0.N = 4 := N_0
  obtain ⟨t, ht⟩ : ∃ t : Fin cfg0.N, t.val = (i 0).val / 512 := ⟨⟨(i 0).val / 512, by show _ < grid0.N; rw [hN]; omega⟩, rfl⟩
  refine ⟨t, flush0_1 t, ?_⟩
  rw [mem_blk]
  obtain ⟨e0, e1, e2, e3⟩ := block_indices t
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 2048 ≤ (i 1).val ∧ (i 1).val < win0_1.index t (1 : Fin 2) * 2048 + 2048; omega

/-- After the launch its output array holds the sign of every weight. -/
theorem final (c : Dev nD) : (dat0 V c).arrAt 1 cfg0.N = signs (V c main_arg1) :=
  (dat0 V c).arrAt_eq_of_cover 1 (signs (V c main_arg1)) (fun t _ => flushed_eq V c t) cover

end Cert.KernelIdeal.WeightSigns

end
-- ==== Proof.RowBlocks.lean ====
/-
  What the second launch leaves in its output array, as one function of the three arrays it reads: the activations,
  the already binarized weights, and the bias laid out as a 1 x 2048 row.

  The launch runs over 16 points. Point t reads the block of rows 512 t … 512 t + 511 of the activations, the WHOLE
  array of binarized weights and the WHOLE bias row (the block index of both stays (0, 0)), and writes the block of rows
  512 t … 512 t + 511 of the output. The entry (p, q) of what it writes is the sum over k of
  sign (x (512 t + p, k)) * wb (q, k), plus the bias row's entry (0, q): it depends on the row 512 t + p of the
  activations only, so it is the entry (512 t + p, q) of ONE whole array, `rows` below, and the 16 blocks tile the
  8192 rows (row r lies in the block of point r / 512).

  Stated at any contents `V` the launch may be entered from.
-/
import proofs.«181405_j33423435498260_2_alg».proof.Proof.Gen.KernelIdeal.Frame
import proofs.«181405_j33423435498260_2_alg».proof.Proof.Payload
import Idealize.ShloMosaic.Lib.Pipeline.Value

set_option maxRecDepth 16384

noncomputable section

namespace Cert.KernelIdeal.RowBlocks

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The output as one array: at (r, q), the signs of row `r` of the activations against row `q` of the binarized
    weights, summed over the columns, plus the bias row's entry in column `q`. -/
def rows (xa : S8192x2048.Idx → Elt Ideal .f32) (wb : S2048x2048.Idx → Elt Ideal .bf16) (b2 : S1x2048.Idx → Elt Ideal .f32) :
    S8192x2048.Idx → Elt Ideal .f32 :=
  fun i => (∑ k : Fin 2048, Ideal.sign (xa (ix2 (i 0) k)) * wb (ix2 (i 1) k)) + b2 (ix2 (0 : Fin 1) (i 1))

theorem origin : (![0, 0] : Fin 2 → Nat) = fun _ => 0 := funext fun a => by fin_cases a <;> rfl

/-- The four windows' block indices at every point, decided over the 16 points: the activations' and the output's row
    block index is the point's number; every other block index is 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of one point's result is one entry of `rows`, whenever the point's three blocks are read where that entry
    of `rows` reads the three arrays: row `p` of the activations' block is row `i 0` of the activations, row `q` of the
    resident block is row `i 1` of the binarized weights, and the bias block's column `q` is the bias row's column `i 1`. -/
theorem point_eq (xa : S8192x2048.Idx → Elt Ideal .f32) (wb : S2048x2048.Idx → Elt Ideal .bf16) (b2 : S1x2048.Idx → Elt Ideal .f32)
    (x0 : Vec Ideal S512x2048 .f32) (x1 : Vec Ideal S2048x2048 .bf16) (x2 : Vec Ideal S1x2048 .f32)
    (i : S8192x2048.Idx) (p : Fin 512) (q : Fin 2048)
    (h0 : ∀ k : Fin 2048, x0 (ix2 p k) = xa (ix2 (i 0) k))
    (h1 : ∀ k : Fin 2048, x1 (ix2 q k) = wb (ix2 (i 1) k))
    (h2 : x2 (ix2 (0 : Fin 1) q) = b2 (ix2 (0 : Fin 1) (i 1))) :
    k1_pay1 (F := Ideal) x0 x1 x2 (ix2 p q) = rows xa wb b2 i := by
  rw [Payload.rows_block]
  unfold rows
  rw [h2]
  refine congrArg (· + b2 (ix2 (0 : Fin 1) (i 1))) (Finset.sum_congr rfl fun k _ => ?_)
  rw [h0, h1]

/-- What point `t` writes back is block `t` of `rows` of the three arrays as the launch finds them. -/
theorem flushed_eq (c : Dev nD) (t : Fin cfg1.N) :
    (dat1 V c).flushed 3 t = ((cfg1.win 3).blk t).view.read (Elt Ideal) (rows (V c main_arg0) (V c main_v0) (V c main_v1)) := by
  show (cfg1.win 3).cut (grid1.coords t) ((dat1 V c).after 3 t) = _
  rw [after1_3]
  unfold out1_3
  rw [View.canon_unit_zero origin]
  simp only [View.ld_unit_zero (S := S512x2048) origin, View.ld_unit_zero (S := S2048x2048) origin, View.ld_unit_zero (S := S1x2048) origin]
  obtain ⟨e0, e1, e2, e3, e4, e5, e6, e7⟩ := block_indices t
  funext j
  show k1_pay1 (F := Ideal) (iblk1 V c 0 t) (iblk1 V c 1 t) (iblk1 V c 2 t) j
    = rows (V c main_arg0) (V c main_v0) (V c main_v1) (((cfg1.win 3).blk t).view.emb j)
  refine (congrArg (k1_pay1 (F := Ideal) (iblk1 V c 0 t) (iblk1 V c 1 t) (iblk1 V c 2 t)) (eq_ix2 j)).trans ?_
  refine point_eq (V c main_arg0) (V c main_v0) (V c main_v1) (iblk1 V c 0 t) (iblk1 V c 1 t) (iblk1 V c 2 t)
    (((cfg1.win 3).blk t).view.emb j) (j 0) (j 1) (fun k => ?_) (fun k => ?_) ?_
  · show V c main_arg0 (((cfg1.win 0).blk t).view.emb (ix2 (j 0) k)) = V c main_arg0 (ix2 ((((cfg1.win 3).blk t).view.emb j) 0) k)
    refine congrArg (V c main_arg0) (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 2048 + 1 * k.val = k.val; omega
  · show V c main_v0 (((cfg1.win 1).blk t).view.emb (ix2 (j 1) k)) = V c main_v0 (ix2 ((((cfg1.win 3).blk t).view.emb j) 1) k)
    refine congrArg (V c main_v0) (funext fun a => Fin.ext ?_)
    match a with
    | ⟨0, _⟩ => show win1_1.index t (0 : Fin 2) * 2048 + 1 * (j 1).val = win1_3.index t (1 : Fin 2) * 2048 + 1 * (j 1).val; omega
    | ⟨1, _⟩ => show win1_1.index t (1 : Fin 2) * 2048 + 1 * k.val = k.val; omega
  · show V c main_v1 (((cfg1.win 2).blk t).view.emb (ix2 (0 : Fin 1) (j 1))) = V c main_v1 (ix2 (0 : Fin 1) ((((cfg1.win 3).blk t).view.emb j) 1))
    refine congrArg (V c main_v1) (funext fun a => Fin.ext ?_)
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega

/-- An index of the output array is in point `t`'s block iff each coordinate is in the block's range on its axis. -/
theorem mem_blk (t : Fin cfg1.N) (i : S8192x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v2).slice (win1_3.rect t)).set ↔ _
  rw [View.set_slice_whole, Rect.mem_set_unit]
  exact Iff.rfl

/-- Every index of the output array is in the block of the point numbered by its row divided by 512. -/
theorem cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have hN : grid1.N = 16 := N_1
  obtain ⟨t, ht⟩ : ∃ t : Fin cfg1.N, t.val = (i 0).val / 512 := ⟨⟨(i 0).val / 512, by show _ < grid1.N; rw [hN]; omega⟩, rfl⟩
  refine ⟨t, flush1_3 t, ?_⟩
  rw [mem_blk]
  obtain ⟨e0, e1, e2, e3, e4, e5, e6, e7⟩ := block_indices t
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After the launch its output array is `rows` of the three arrays it was entered with. -/
theorem final (c : Dev nD) : (dat1 V c).arrAt 3 cfg1.N = rows (V c main_arg0) (V c main_v0) (V c main_v1) :=
  (dat1 V c).arrAt_eq_of_cover 3 (rows (V c main_arg0) (V c main_v0) (V c main_v1)) (fun t _ => flushed_eq V c t) cover

end Cert.KernelIdeal.RowBlocks

end
-- ==== Proof.ResultValue.lean ====
/-
  What the kernel program's result buffer holds after its run: the layer's function of the three launched arrays.

  The second launch's output is `rows` of the three arrays it is ENTERED with (the module on its blocks). Those are, read
  back through the fold of the program's contents: the activations as launched (nothing before writes them); the first
  launch's output, which the host operation between the launches does not touch and which is the sign of the launched
  weights (the module on the first launch's blocks); and the launched bias vector laid out as a 1 x 2048 row by the host
  reshape — a reshape keeps the row-major position, and the position of (0, q) in a 1 x 2048 array is q. Substituting
  the three, `rows` becomes the specification's `out` index by index.
-/
import proofs.«181405_j33423435498260_2_alg».proof.Proof.Gen.KernelIdeal.Frame
import proofs.«181405_j33423435498260_2_alg».proof.Proof.WeightSigns
import proofs.«181405_j33423435498260_2_alg».proof.Proof.RowBlocks
import proofs.«181405_j33423435498260_2_alg».proof.Proof.Spec
import Idealize.ShloMosaic.Lib.StableHlo.Run
import Idealize.ShloMosaic.Lib.Pipeline.Value

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.ValueIdx Idealize.ShloMosaic.StableHlo Cert.SignLinear

variable (m : (ℓ : Loc nD τ sig) → Buf (Elt Ideal) ℓ) (ρ : Dev nD → PrngReg)

/-! ## What the second launch is entered with -/

/-- The activations: as launched. -/
theorem entry_x (c : Dev nD) : V2 m ρ c main_arg0 = m ((c : Thread nD τ).loc main_arg0) :=
  (((W3_arr m ρ c 0).trans (((dat1 (V2 m ρ) c).arrAt_in 0 rfl _).trans (A_eq1 (V2 m ρ) c 0))).symm).trans (W3_main_arg0 m ρ c)

/-- The binarized weights: what the first launch left, which is the sign of the launched weights; the host operation
    between the launches writes another buffer. -/
theorem entry_wb (c : Dev nD) : V2 m ρ c main_v0 = WeightSigns.signs (m ((c : Thread nD τ).loc main_arg1)) :=
  calc V2 m ρ c main_v0
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 1 cfg0.N := W1_arr m ρ c 1
    _ = WeightSigns.signs (V0 m ρ c main_arg1) := WeightSigns.final (V0 m ρ) c
    _ = WeightSigns.signs (m ((c : Thread nD τ).loc main_arg1)) := rfl

/-- The bias row: the launched bias vector, reshaped by the host to 1 x 2048. -/
theorem entry_bias (c : Dev nD) :
    V2 m ρ c main_v1 = shapeCast S1x2048 (m ((c : Thread nD τ).loc main_arg2)) shapeCasts_S2048_S1x2048 := by
  show StableHlo.after hostOps1 (W1 m ρ c) (Proc.devRef .tc main_v1) = _
  dsimp only [hostOps1]
  after_results
  rw [W1_of_ne m ρ c main_arg2 (by decide)]
  rfl

/-- The reshaped row at (0, q) is the vector's entry q: the two have the same row-major position. -/
theorem bias_row_at {α : Type} (b : S2048.Idx → α) (q : Fin 2048) :
    shapeCast S1x2048 b shapeCasts_S2048_S1x2048 (ix2 (0 : Fin 1) q) = b (ix1 q) :=
  shapeCast_apply b shapeCasts_S2048_S1x2048 (ix2 (0 : Fin 1) q) (ix1 q) (by
    rw [Shape.rowMajor_val_one, Shape.rowMajor_val_two]
    show q.val = 0 * 2048 + q.val
    omega)

/-! ## The result -/

/-- The last boundary's contents of the result buffer: the layer's function of the launched arrays. -/
theorem result_eq (c : Dev nD) :
    W3 m ρ c (Proc.devRef .tc main_v2)
      = out (m ((c : Thread nD τ).loc main_arg0)) (m ((c : Thread nD τ).loc main_arg1)) (m ((c : Thread nD τ).loc main_arg2)) :=
  calc W3 m ρ c (Proc.devRef .tc main_v2)
    _ = (dat1 (V2 m ρ) c).arrAt 3 cfg1.N := W3_arr m ρ c 3
    _ = RowBlocks.rows (V2 m ρ c main_arg0) (V2 m ρ c main_v0) (V2 m ρ c main_v1) := RowBlocks.final (V2 m ρ) c
    _ = RowBlocks.rows (m ((c : Thread nD τ).loc main_arg0)) (WeightSigns.signs (m ((c : Thread nD τ).loc main_arg1)))
          (shapeCast S1x2048 (m ((c : Thread nD τ).loc main_arg2)) shapeCasts_S2048_S1x2048) := by
        rw [entry_x m ρ c, entry_wb m ρ c, entry_bias m ρ c]
    _ = out (m ((c : Thread nD τ).loc main_arg0)) (m ((c : Thread nD τ).loc main_arg1)) (m ((c : Thread nD τ).loc main_arg2)) := by
        funext i
        obtain ⟨p, q, rfl⟩ : ∃ (p : Fin 8192) (q : Fin 2048), i = ix2 p q := ⟨i 0, i 1, eq_ix2 i⟩
        show signDot (m ((c : Thread nD τ).loc main_arg0)) (m ((c : Thread nD τ).loc main_arg1)) p q
            + shapeCast S1x2048 (m ((c : Thread nD τ).loc main_arg2)) shapeCasts_S2048_S1x2048 (ix2 (0 : Fin 1) q)
          = signDot (m ((c : Thread nD τ).loc main_arg0)) (m ((c : Thread nD τ).loc main_arg1)) p q + m ((c : Thread nD τ).loc main_arg2) (ix1 q)
        rw [bias_row_at]

end Cert.KernelIdeal.ResultValue

end
-- ==== Proof.Finite.lean ====
/-
  What the precondition gives: every activation and every weight is a real number.

  The precondition is the conjunction of three "all entries have magnitude below +infinity" tests, one per argument.
  On the extended reals the magnitude of `a` is the larger of `a` and `-a`, which is the upper infinity at BOTH infinities
  and a real otherwise; so "the magnitude is below the upper infinity" says exactly that `a` is neither infinity. The
  conjunction and each "all" are read back entry by entry. Only the first two arguments are needed: the bias is only
  added, and addition needs no finiteness.
-/
import proofs.«181405_j33423435498260_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic

/-- The shape of a scalar has one index. -/
instance : Subsingleton S_.Idx := ⟨fun a b => funext fun d => d.elim0⟩

/-- An extended real whose magnitude is below the upper infinity is neither infinity. -/
theorem real_of_abs_lt_top (a : EReal)
    (h : Ideal.cmp .olt (max a (-a)) (Ideal.ofBits .f32 0x7F800000#32) = 1#1) : a ≠ ⊤ ∧ a ≠ ⊥ := by
  have htop : Ideal.ofBits .f32 0x7F800000#32 = ⊤ := by simp [Ideal.ofBits, Ideal.ieee]
  rw [htop] at h
  have hlt : max a (-a) < ⊤ := by
    by_cases hlt : max a (-a) < ⊤
    · exact hlt
    · exfalso; revert h; simp [Ideal.cmp, hlt]
  constructor
  · rintro rfl; simp at hlt
  · rintro rfl; simp at hlt

/-- Under the precondition the activations and the weights are arrays of reals. -/
theorem reals_of_pre [Facts] (x : FVec Ideal S8192x2048 .f32) (w : FVec Ideal S2048x2048 .f32) (b : FVec Ideal S2048 .f32)
    (h : fn (F := Ideal) x w b = fun _ => 1#1) :
    (∀ i, x i ≠ ⊤ ∧ x i ≠ ⊥) ∧ (∀ i, w i ≠ ⊤ ∧ w i ≠ ⊥) := by
  have h0 := congrFun h ValueIdx.ix0
  dsimp only [fn] at h0
  obtain ⟨h01, _⟩ := IntOp.andi_eq_one.1 h0
  obtain ⟨hx, hw⟩ := IntOp.andi_eq_one.1 h01
  exact ⟨fun i => real_of_abs_lt_top (x i) (Host.reduce_andi_all _ _ _ _ _ hx i),
    fun i => real_of_abs_lt_top (w i) (Host.reduce_andi_all _ _ _ _ _ hw i)⟩

end Cert.Pre_finite_inputs.Finite

end
-- ==== Proof.lean ====
/- A binarized linear layer, out (t, o) = (sum over k of sign (x (t, k)) * sign (w (o, k))) + b o, computed two ways.

   The kernel program takes the sign of the weights once, block of rows by block of rows, in a first launch; lays the
   bias out as a row; and in a second launch, for each block of 512 rows of the activations, takes their sign by the same
   expression, contracts the column index against the whole array of binarized weights into a zero accumulator, and adds
   the bias row. The reference program binarizes both arrays in the straight-through form a + (sign a - a), contracts the
   same index in one product, and adds the bias broadcast over the rows.

   On the extended reals, with every float operation exact and every change of float format the identity, the two
   results are equal index by index as soon as the activations and the weights are real numbers: the kernel's "1.0
   carrying the sign, where the magnitude is above zero, else the entry" IS the three-valued sign at every extended
   real; the straight-through form is the sign at every REAL (it is not at an infinity, which is where the precondition
   is used); a product accumulated from zero and the host's product are the same finite sum; and cutting the rows into
   blocks changes nothing, each output entry depending on one row of the activations only. The modules: Proof/Spec (the
   function, and the law of the straight-through form), Proof/Payload (the two bodies at an index), Proof/WeightSigns and
   Proof/RowBlocks (each launch's output array from its blocks), Proof/ResultRun and Proof/ResultValue (the program's run
   with its result named, and that result as the function), Proof/RefValue (the reference's result as the function),
   Proof/Finite (the precondition read entry by entry).

   The three frames are the programs' runs with the results forgotten; the kernel's idealization differs from the
   printed kernel in the two readings of a sign bit as "below zero", one per launch, each sanctioned by the rule's own
   statement. -/
import proofs.«181405_j33423435498260_2_alg».proof.Defs
import proofs.«181405_j33423435498260_2_alg».proof.Proof.Gen.Kernel
import proofs.«181405_j33423435498260_2_alg».proof.Proof.Gen.Kernel.Skeleton
import proofs.«181405_j33423435498260_2_alg».proof.Proof.Gen.Kernel.Launch
import proofs.«181405_j33423435498260_2_alg».proof.Proof.Gen.Kernel.Points
import proofs.«181405_j33423435498260_2_alg».proof.Proof.Gen.Kernel.Frame
import proofs.«181405_j33423435498260_2_alg».proof.Proof.Gen.KernelIdeal
import proofs.«181405_j33423435498260_2_alg».proof.Proof.Gen.KernelIdeal.Skeleton
import proofs.«181405_j33423435498260_2_alg».proof.Proof.Gen.KernelIdeal.Launch
import proofs.«181405_j33423435498260_2_alg».proof.Proof.Gen.KernelIdeal.Points
import proofs.«181405_j33423435498260_2_alg».proof.Proof.Gen.KernelIdeal.Frame
import proofs.«181405_j33423435498260_2_alg».proof.Proof.Gen.ReferenceIdeal
import proofs.«181405_j33423435498260_2_alg».proof.Proof.Gen.Pre_finite_inputs
import proofs.«181405_j33423435498260_2_alg».proof.Proof.Gen.ReferenceIdeal.Run
import proofs.«181405_j33423435498260_2_alg».proof.Proof.Gen.ReferenceIdeal.Read
import proofs.«181405_j33423435498260_2_alg».proof.Proof.Spec
import proofs.«181405_j33423435498260_2_alg».proof.Proof.RefValue
import proofs.«181405_j33423435498260_2_alg».proof.Proof.ResultRun
import proofs.«181405_j33423435498260_2_alg».proof.Proof.ResultValue
import proofs.«181405_j33423435498260_2_alg».proof.Proof.Finite
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-! ## The idealization -/

/-- Each launch reads a sign bit once; "1.0 carrying the sign bit" is read as "-1 below zero, else 1", which is the
    rule's statement at the block's shape. -/
theorem preserves : Cert.preserves_Kernel_KernelIdeal :=
  ⟨IdealRules.sign_bit.statement _ _, IdealRules.sign_bit.statement _ _⟩

/-! ## The two results -/

/-- The kernel program's run at the exact instance: the result buffer ends at the layer's function of the launched
    arrays, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2)
            = Cert.SignLinear.out (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun r h c => ⟨(h c).1.trans (Cert.KernelIdeal.ResultValue.result_eq m ρ c), (h c).2⟩)
    (Cert.KernelIdeal.ResultRun.run (F := Ideal) m ρ)

/-- From memories that agree on the arguments, with the kernel's arguments finite, both programs end with the layer's
    function of the kernel's arguments in their result buffers. -/
theorem algebraic : Cert.algebraic_KernelIdeal_ReferenceIdeal := by
  intro m ρ m' ρ' hpre hagree
  have hreal := fun c => Cert.Pre_finite_inputs.Finite.reals_of_pre _ _ _ (hpre c)
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2]
  exact Cert.ReferenceIdeal.RefValue.result_eq _ _ _ (hreal c).1 (hreal c).2

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
